-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x85x8400 : Shape := ⟨3, ![64, 85, 8400]⟩
abbrev S8400x4 : Shape := ⟨2, ![8400, 4]⟩
abbrev S_ : Shape := ⟨0, ![]⟩

class Facts : Prop where
  bcast_S_S64x85x8400 : S_.BroadcastsInDim S64x85x8400 (![] : Fin 0 → Fin S64x85x8400.rank)
  reducesTo_S64x85x8400_S_d0_1_2 : S64x85x8400.ReducesTo [0, 1, 2] S_
  h_S_ : 0 < S_.numel
  bcast_S_S8400x4 : S_.BroadcastsInDim S8400x4 (![] : Fin 0 → Fin S8400x4.rank)
  reducesTo_S8400x4_S_d0_1 : S8400x4.ReducesTo [0, 1] S_

variable [Facts]

def fn {F : FTy → Type} [FloatOps F] (main_arg0 : FVec F S64x85x8400 .f32) (main_arg1 : FVec F S8400x4 .f32) : IVec S_ 1 :=
  let main_v0 : FVec F S64x85x8400 .f32 := Host.absf main_arg0
  let main_cst : FVec F S_ .f32 := constant S_ .f32 0x7F800000#32
  let main_v1 : FVec F S64x85x8400 .f32 := broadcastInDim S64x85x8400 ![] bcast_S_S64x85x8400 main_cst
  let main_v2 : IVec S64x85x8400 1 := cmpf .olt main_v0 main_v1
  let main_c : IVec S_ 1 := constantI S_ 1 1#1
  let main_v3 : IVec S_ 1 := (fun x v => Host.reduce IntOp.andi x v reducesTo_S64x85x8400_S_d0_1_2 h_S_) main_v2 main_c
  let main_v4 : FVec F S8400x4 .f32 := Host.absf main_arg1
  let main_cst_0 : FVec F S_ .f32 := constant S_ .f32 0x7F800000#32
  let main_v5 : FVec F S8400x4 .f32 := broadcastInDim S8400x4 ![] bcast_S_S8400x4 main_cst_0
  let main_v6 : IVec S8400x4 1 := cmpf .olt main_v4 main_v5
  let main_c_1 : IVec S_ 1 := constantI S_ 1 1#1
  let main_v7 : IVec S_ 1 := (fun x v => Host.reduce IntOp.andi x v reducesTo_S8400x4_S_d0_1 h_S_) main_v6 main_c_1
  let main_v8 : IVec S_ 1 := andi main_v3 main_v7
  main_v8
-- ==== Kernel.lean ====
abbrev S64x85x8400 : Shape := ⟨3, ![64, 85, 8400]⟩
abbrev S8400x4 : Shape := ⟨2, ![8400, 4]⟩
abbrev S8400x2 : Shape := ⟨2, ![8400, 2]⟩
abbrev S2x8400 : Shape := ⟨2, ![2, 8400]⟩
abbrev S64x1x714000 : Shape := ⟨3, ![64, 1, 714000]⟩
abbrev S2x85x8400 : Shape := ⟨3, ![2, 85, 8400]⟩
abbrev S2x1x714000 : Shape := ⟨3, ![2, 1, 714000]⟩
abbrev S1x2x8400 : Shape := ⟨3, ![1, 2, 8400]⟩
abbrev S2x2x8400 : Shape := ⟨3, ![2, 2, 8400]⟩
abbrev S2x81x8400 : Shape := ⟨3, ![2, 81, 8400]⟩
abbrev S2x8400x85 : Shape := ⟨3, ![2, 8400, 85]⟩
abbrev S2x714000 : Shape := ⟨2, ![2, 714000]⟩
abbrev S64x8400x85 : Shape := ⟨3, ![64, 8400, 85]⟩

abbrev nBuf : Space → Nat
  | .hbm => 8
  | .vmem => 6
  | .smem => 0
  | _ => 0

abbrev bufTy : (tb : Table) → Fin (tcTables nBuf tb) → BufTy
  | .hbm, ⟨0, _⟩ => ⟨S64x85x8400, .f32⟩
  | .hbm, ⟨1, _⟩ => ⟨S8400x4, .f32⟩
  | .hbm, ⟨2, _⟩ => ⟨S8400x2, .f32⟩
  | .hbm, ⟨3, _⟩ => ⟨S2x8400, .f32⟩
  | .hbm, ⟨4, _⟩ => ⟨S8400x2, .f32⟩
  | .hbm, ⟨5, _⟩ => ⟨S2x8400, .f32⟩
  | .hbm, ⟨6, _⟩ => ⟨S64x1x714000, .f32⟩
  | .hbm, ⟨7, _⟩ => ⟨S64x8400x85, .f32⟩
  | .local _ .vmem, ⟨0, _⟩ => ⟨S2x85x8400, .f32⟩
  | .local _ .vmem, ⟨1, _⟩ => ⟨S2x85x8400, .f32⟩
  | .local _ .vmem, ⟨2, _⟩ => ⟨S2x8400, .f32⟩
  | .local _ .vmem, ⟨3, _⟩ => ⟨S2x8400, .f32⟩
  | .local _ .vmem, ⟨4, _⟩ => ⟨S2x1x714000, .f32⟩
  | .local _ .vmem, ⟨5, _⟩ => ⟨S2x1x714000, .f32⟩
  | _, _ => ⟨S64x85x8400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x85x8400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x8400 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x8400 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x1x714000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S8400x4_S8400x2_0_0 : S8400x4.Slices ![0, 0] S8400x2
  transposes_S8400x2_S2x8400_1_0 : S8400x2.Transposes [1, 0] S2x8400
  slices_S8400x4_S8400x2_0_2 : S8400x4.Slices ![0, 2] S8400x2
  inb_S2x8400_S2x8400_0_0 : ∀ a, (![0, 0] : Fin 2 → Nat) a + S2x8400.size a ≤ S2x8400.size a
  h_S2x8400 : 0 < S2x8400.numel
  shapeCasts_S2x8400_S2x8400 : S2x8400.ShapeCasts S2x8400
  shapeCasts_S2x8400_S1x2x8400 : S2x8400.ShapeCasts S1x2x8400
  inb_S2x85x8400_S2x85x8400_0_0_0 : ∀ a, (![0, 0, 0] : Fin 3 → Nat) a + S2x85x8400.size a ≤ S2x85x8400.size a
  h_S2x85x8400 : 0 < S2x85x8400.numel
  slices_S2x85x8400_o0_0_0_S2x2x8400 : S2x85x8400.Slices ![0, 0, 0] S2x2x8400
  broadcasts_S1x2x8400_S2x2x8400 : S1x2x8400.Broadcasts S2x2x8400
  slices_S2x85x8400_o0_2_0_S2x2x8400 : S2x85x8400.Slices ![0, 2, 0] S2x2x8400
  slices_S2x85x8400_o0_4_0_S2x81x8400 : S2x85x8400.Slices ![0, 4, 0] S2x81x8400
  concatenates_S2x2x8400_S2x2x8400_S2x81x8400_S2x85x8400_d1 : Shape.Concatenates [S2x2x8400, S2x2x8400, S2x81x8400] S2x85x8400 1
  transposes_S2x85x8400_p0_2_1_S2x8400x85 : S2x85x8400.Transposes [0, 2, 1] S2x8400x85
  shapeCasts_S2x8400x85_S2x714000 : S2x8400x85.ShapeCasts S2x714000
  inb_S2x1x714000_S2x1x714000_0_0_0 : ∀ a, (![0, 0, 0] : Fin 3 → Nat) a + S2x1x714000.size a ≤ S2x1x714000.size a
  h_S2x1x714000 : 0 < S2x1x714000.numel
  shapeCasts_S2x1x714000_S2x714000 : S2x1x714000.ShapeCasts S2x714000
  shapeCasts_S2x714000_S2x1x714000 : S2x714000.ShapeCasts S2x1x714000
  shapeCasts_S64x1x714000_S64x8400x85 : S64x1x714000.ShapeCasts S64x8400x85
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x85x8400.size a ≤ S64x85x8400.size a
  hwx0_0 : ∀ i : grid0.Coords, EltTy.bits .f32 = 32 ∨ (Rect.block (s := S64x85x8400) S2x85x8400.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x8400.size a ≤ S2x8400.size a
  hwx0_1 : ∀ i : grid0.Coords, EltTy.bits .f32 = 32 ∨ (Rect.block (s := S2x8400) S2x8400.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x8400.size a ≤ S2x8400.size a
  hwx0_2 : ∀ i : grid0.Coords, EltTy.bits .f32 = 32 ∨ (Rect.block (s := S2x8400) S2x8400.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x1x714000.size a ≤ S64x1x714000.size a
  hwx0_3 : ∀ i : grid0.Coords, EltTy.bits .f32 = 32 ∨ (Rect.block (s := S64x1x714000) S2x1x714000.size (cc0_transform_3 i) (hinb0_3 i)).WholeWords (EltTy.packing .f32)

variable [Facts₀]

abbrev win0_0 : Pipeline.Window sig grid0 :=
  Pipeline.Window.ofSpec (Memref.whole main_arg0) S2x85x8400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x8400.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2x8400.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2x1x714000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x85x8400 : Shape := ⟨3, ![64, 85, 8400]⟩
abbrev S8400x4 : Shape := ⟨2, ![8400, 4]⟩
abbrev S4x8400 : Shape := ⟨2, ![4, 8400]⟩
abbrev S1x4x8400 : Shape := ⟨3, ![1, 4, 8400]⟩
abbrev S1x2x8400 : Shape := ⟨3, ![1, 2, 8400]⟩
abbrev S64x2x8400 : Shape := ⟨3, ![64, 2, 8400]⟩
abbrev S64x81x8400 : Shape := ⟨3, ![64, 81, 8400]⟩
abbrev S_ : Shape := ⟨0, ![]⟩
abbrev S64x8400x85 : Shape := ⟨3, ![64, 8400, 85]⟩

abbrev nBuf : Space → Nat
  | .hbm => 26
  | .vmem => 0
  | .smem => 0
  | _ => 0

abbrev bufTy : (tb : Table) → Fin (tcTables nBuf tb) → BufTy
  | .hbm, ⟨0, _⟩ => ⟨S64x85x8400, .f32⟩
  | .hbm, ⟨1, _⟩ => ⟨S8400x4, .f32⟩
  | .hbm, ⟨2, _⟩ => ⟨S4x8400, .f32⟩
  | .hbm, ⟨3, _⟩ => ⟨S1x4x8400, .f32⟩
  | .hbm, ⟨4, _⟩ => ⟨S1x2x8400, .f32⟩
  | .hbm, ⟨5, _⟩ => ⟨S1x2x8400, .f32⟩
  | .hbm, ⟨6, _⟩ => ⟨S64x2x8400, .f32⟩
  | .hbm, ⟨7, _⟩ => ⟨S64x2x8400, .f32⟩
  | .hbm, ⟨8, _⟩ => ⟨S64x2x8400, .f32⟩
  | .hbm, ⟨9, _⟩ => ⟨S64x2x8400, .f32⟩
  | .hbm, ⟨10, _⟩ => ⟨S64x2x8400, .f32⟩
  | .hbm, ⟨11, _⟩ => ⟨S64x2x8400, .f32⟩
  | .hbm, ⟨12, _⟩ => ⟨S64x2x8400, .f32⟩
  | .hbm, ⟨13, _⟩ => ⟨S64x2x8400, .f32⟩
  | .hbm, ⟨14, _⟩ => ⟨S64x2x8400, .f32⟩
  | .hbm, ⟨15, _⟩ => ⟨S64x81x8400, .f32⟩
  | .hbm, ⟨16, _⟩ => ⟨S64x81x8400, .f32⟩
  | .hbm, ⟨17, _⟩ => ⟨S64x81x8400, .f32⟩
  | .hbm, ⟨18, _⟩ => ⟨S_, .f32⟩
  | .hbm, ⟨19, _⟩ => ⟨S64x81x8400, .f32⟩
  | .hbm, ⟨20, _⟩ => ⟨S64x81x8400, .f32⟩
  | .hbm, ⟨21, _⟩ => ⟨S_, .f32⟩
  | .hbm, ⟨22, _⟩ => ⟨S64x81x8400, .f32⟩
  | .hbm, ⟨23, _⟩ => ⟨S64x81x8400, .f32⟩
  | .hbm, ⟨24, _⟩ => ⟨S64x85x8400, .f32⟩
  | .hbm, ⟨25, _⟩ => ⟨S64x8400x85, .f32⟩
  | _, _ => ⟨S64x85x8400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_v17 : Ref sig .tc := ⟨.hbm, 20, rfl⟩
abbrev main_cst_0 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩

abbrev nD : Nat := 1
abbrev τ : Topo := Topo.v7x

variable {F : FTy → Type} [FloatOps F]

class Facts₀ : Prop where
  transposes_S8400x4_S4x8400_1_0 : S8400x4.Transposes [1, 0] S4x8400
  bcast_S4x8400_S1x4x8400_1_2 : S4x8400.BroadcastsInDim S1x4x8400 (![1, 2] : Fin 2 → Fin S1x4x8400.rank)
  slices_S1x4x8400_S1x2x8400_0_0_0 : S1x4x8400.Slices ![0, 0, 0] S1x2x8400
  slices_S1x4x8400_S1x2x8400_0_2_0 : S1x4x8400.Slices ![0, 2, 0] S1x2x8400
  slices_S64x85x8400_S64x2x8400_0_0_0 : S64x85x8400.Slices ![0, 0, 0] S64x2x8400
  bcast_S1x2x8400_S64x2x8400_0_1_2 : S1x2x8400.BroadcastsInDim S64x2x8400 (![0, 1, 2] : Fin 3 → Fin S64x2x8400.rank)
  slices_S64x85x8400_S64x2x8400_0_2_0 : S64x85x8400.Slices ![0, 2, 0] S64x2x8400
  slices_S64x85x8400_S64x81x8400_0_4_0 : S64x85x8400.Slices ![0, 4, 0] S64x81x8400
  bcast_S_S64x81x8400 : S_.BroadcastsInDim S64x81x8400 (![] : Fin 0 → Fin S64x81x8400.rank)
  concatenates_S64x2x8400_S64x2x8400_S64x81x8400_S64x85x8400_d1 : Shape.Concatenates [S64x2x8400, S64x2x8400, S64x81x8400] S64x85x8400 1
  transposes_S64x85x8400_S64x8400x85_0_2_1 : S64x85x8400.Transposes [0, 2, 1] S64x8400x85

variable [Facts₀]

class Facts : Prop extends Facts₀ where

variable [Facts]
-- ==== Proof.DecodeSpec.lean ====
/-
  The box decode as ONE function of its two arguments, on the extended reals.

  For a batch entry `b`, a proposal `n` and an output channel `c` the decoded value is

    c = 0, 1    anchors[n, c] + dt[b, c, n] · anchors[n, c + 2]    the box centre: the anchor's centre moved by the
                                                                   predicted offset, scaled by the anchor's size
    c = 2, 3    anchors[n, c] · exp (dt[b, c, n])                  the box size: the anchor's size scaled by an exponential
    c ≥ 4       1 / (1 + exp (− dt[b, c, n]))                      objectness and class scores: the logistic function

  and the result array holds it at `[b, n, c]`, channels LAST, while `dt` has them in the middle. Nothing here
  mentions a program: both the kernel and the reference are shown, elsewhere, to compute this function.

  No law of arithmetic is needed to join the two sides — each computes exactly these expressions, with the same
  operands in the same order — so finiteness of the inputs is never used; the one float literal either side has is the
  word of `1.0`, which the logistic function's own definition spells as the extended real `1`.
-/
import Idealize.ShloMosaic.PureOps.Ideal
import Idealize.ShloMosaic.Lib.ValueIdx

noncomputable section

namespace Cert.Decode

open Idealize.ShloMosaic Idealize.ShloMosaic.ValueIdx

/-- The predictions, `[batch, channel, proposal]`. -/
abbrev SDt : Shape := ⟨3, ![64, 85, 8400]⟩
/-- The anchors, `[proposal, (cx, cy, w, h)]`. -/
abbrev SAnch : Shape := ⟨2, ![8400, 4]⟩
/-- The decoded boxes and scores, `[batch, proposal, channel]`. -/
abbrev SOut : Shape := ⟨3, ![64, 8400, 85]⟩

/-- The decoded value of channel `c` of proposal `n` of batch entry `b`. The anchor column a centre channel is
    scaled by is two to its right (`w` for `cx`, `h` for `cy`); a size channel reads its own column. -/
def decoded (dt : SDt.Idx → EReal) (anch : SAnch.Idx → EReal) (b : Fin 64) (n : Fin 8400) (c : Fin 85) : EReal :=
  if h2 : c.val < 2 then
    anch (ix2 n ⟨c.val, by omega⟩) + dt (ix3 b c n) * anch (ix2 n ⟨c.val + 2, by omega⟩)
  else if h4 : c.val < 4 then
    anch (ix2 n ⟨c.val, by omega⟩) * Ideal.exp (dt (ix3 b c n))
  else
    Ideal.logistic (dt (ix3 b c n))

/-- The whole result: `decoded` at every `[b, n, c]`. -/
def result (dt : SDt.Idx → EReal) (anch : SAnch.Idx → EReal) : SOut.Idx → EReal :=
  fun i => decoded dt anch (i 0) (i 1) (i 2)

theorem result_apply (dt : SDt.Idx → EReal) (anch : SAnch.Idx → EReal) (b : Fin 64) (n : Fin 8400) (c : Fin 85) :
    result dt anch (ix3 b n c) = decoded dt anch b n c := rfl

/-- On a centre channel. -/
theorem decoded_centre (dt : SDt.Idx → EReal) (anch : SAnch.Idx → EReal) (b : Fin 64) (n : Fin 8400) (c : Fin 85)
    (h : c.val < 2) :
    decoded dt anch b n c = anch (ix2 n ⟨c.val, by omega⟩) + dt (ix3 b c n) * anch (ix2 n ⟨c.val + 2, by omega⟩) := by
  unfold decoded; rw [dif_pos h]

/-- On a size channel. -/
theorem decoded_size (dt : SDt.Idx → EReal) (anch : SAnch.Idx → EReal) (b : Fin 64) (n : Fin 8400) (c : Fin 85)
    (h2 : ¬ c.val < 2) (h4 : c.val < 4) :
    decoded dt anch b n c = anch (ix2 n ⟨c.val, by omega⟩) * Ideal.exp (dt (ix3 b c n)) := by
  unfold decoded; rw [dif_neg h2, dif_pos h4]

/-- On a score channel. -/
theorem decoded_score (dt : SDt.Idx → EReal) (anch : SAnch.Idx → EReal) (b : Fin 64) (n : Fin 8400) (c : Fin 85)
    (h4 : ¬ c.val < 4) :
    decoded dt anch b n c = Ideal.logistic (dt (ix3 b c n)) := by
  unfold decoded; rw [dif_neg (by omega), dif_neg h4]

/-- The word of `1.0` is the extended real `1`. -/
theorem ofBits_one : Ideal.ofBits .f32 0x3F800000#32 = 1 := by
  simp [Ideal.ofBits, Ideal.ieee, -EReal.coe_mul]; norm_num

/-- The logistic function spelt with that word for its two ones — how a host program writes it out —
    is the logistic function. -/
theorem logistic_spelt (x : EReal) :
    Ideal.div (Ideal.ofBits .f32 0x3F800000#32) (Ideal.ofBits .f32 0x3F800000#32 + Ideal.exp (-x)) = Ideal.logistic x := by
  rw [ofBits_one]; rfl

end Cert.Decode

end
-- ==== Proof.RefDecode.lean ====
/-
  The reference computes the decode (`Cert.Decode.result`).

  The reference transposes the anchors once to `[4, proposal]`, gives them a unit batch axis, cuts the centre rows
  (0, 1) and the size rows (2, 3) apart, and broadcasts each over the batch; it cuts `dt` along its channel axis into
  the centre offsets (channels 0–1), the log-sizes (2–3) and the logits (4–84); computes the three bands; joins them
  along the channel axis and swaps the last two axes. Read at an index `[b, n, c]` of the result, the swap asks the
  joined array at `[b, c, n]`, the join asks ONE band — the one whose channel range holds `c` — at `c` less the
  channels before that band, and the band's own slices and broadcasts ask `dt` at `[b, c, n]` and the anchors at
  `[n, c]` (and `[n, c + 2]` for a centre). So every element is the matching case of `Cert.Decode.decoded`; the
  logits' band spells the logistic function out as `1 / (1 + exp (−x))` with the word of `1.0`.
-/
import proofs.«164635_j78958678770193_2_alg».proof.Proof.Gen.ReferenceIdeal.Read
import proofs.«164635_j78958678770193_2_alg».proof.Proof.DecodeSpec
import Idealize.ShloMosaic.Lib.ValueIdx
import Idealize.ShloMosaic.Lib.Pipeline.Value

noncomputable section

namespace Cert.Decode.Ref

open Idealize.ShloMosaic Idealize.ShloMosaic.ValueIdx
open Cert.ReferenceIdeal Cert.ReferenceIdeal.Read

variable (x0 : S64x85x8400.Idx → EReal) (x1 : S8400x4.Idx → EReal)

/-! ## The three bands, each at an index -/

/-- The centre band at channel `c < 2`: the anchor's centre plus the offset times the anchor's size. -/
theorem centre_stage (b : Fin 64) (c : Fin 85) (h : c.val < 2) (n : Fin 8400) :
    val_main_v8 (F := Ideal) x0 x1 (ix3 b (⟨c.val, h⟩ : Fin 2) n)
      = x1 (ix2 n ⟨c.val, by omega⟩) + x0 (ix3 b c n) * x1 (ix2 n ⟨c.val + 2, by omega⟩) := by
  have eCentre : idx_main_v0 (idx_main_v1 (idx_main_v2 (idx_main_v7 (ix3 b (⟨c.val, h⟩ : Fin 2) n)))) = ix2 n ⟨c.val, by omega⟩ :=
    funext fun a => Fin.ext (by match a with | ⟨0, _⟩ => rfl | ⟨1, _⟩ => rfl)
  have eSize : idx_main_v0 (idx_main_v1 (idx_main_v3 (idx_main_v5 (ix3 b (⟨c.val, h⟩ : Fin 2) n)))) = ix2 n ⟨c.val + 2, by omega⟩ :=
    funext fun a => Fin.ext (by match a with | ⟨0, _⟩ => rfl | ⟨1, _⟩ => exact Nat.add_comm 2 c.val)
  have eDt : idx_main_v4 (ix3 b (⟨c.val, h⟩ : Fin 2) n) = ix3 b c n :=
    funext fun a => Fin.ext (by match a with | ⟨0, _⟩ => rfl | ⟨1, _⟩ => rfl | ⟨2, _⟩ => rfl)
  rw [val_main_v8_apply, val_main_v7_apply, val_main_v2_apply, val_main_v1_apply, val_main_v0_apply, eCentre,
    val_main_v6_apply, val_main_v4_apply, eDt, val_main_v5_apply, val_main_v3_apply, val_main_v1_apply, val_main_v0_apply, eSize]
  rfl

/-- The size band at channel `2 ≤ c < 4` (the band's own channel `c - 2`): the anchor's size times the exponential. -/
theorem size_stage (b : Fin 64) (c : Fin 85) (h2 : ¬ c.val < 2) (h4 : c.val < 4) (n : Fin 8400) :
    val_main_v12 (F := Ideal) x0 x1 (ix3 b (⟨c.val - 2, by omega⟩ : Fin 2) n)
      = x1 (ix2 n ⟨c.val, by omega⟩) * Ideal.exp (x0 (ix3 b c n)) := by
  have eSize : idx_main_v0 (idx_main_v1 (idx_main_v3 (idx_main_v11 (ix3 b (⟨c.val - 2, by omega⟩ : Fin 2) n)))) = ix2 n ⟨c.val, by omega⟩ :=
    funext fun a => Fin.ext (by match a with | ⟨0, _⟩ => rfl | ⟨1, _⟩ => show 2 + (c.val - 2) = c.val; omega)
  have eDt : idx_main_v9 (ix3 b (⟨c.val - 2, by omega⟩ : Fin 2) n) = ix3 b c n :=
    funext fun a => Fin.ext (by match a with | ⟨0, _⟩ => rfl | ⟨1, _⟩ => show 2 + (c.val - 2) = c.val; omega | ⟨2, _⟩ => rfl)
  rw [val_main_v12_apply, val_main_v11_apply, val_main_v3_apply, val_main_v1_apply, val_main_v0_apply, eSize,
    val_main_v10_apply, val_main_v9_apply, eDt]
  rfl

/-- The score band at channel `c ≥ 4` (the band's own channel `c - 4`): the logistic function, spelt out. -/
theorem score_stage (b : Fin 64) (c : Fin 85) (h4 : ¬ c.val < 4) (n : Fin 8400) :
    val_main_v19 (F := Ideal) x0 (ix3 b (⟨c.val - 4, by omega⟩ : Fin 81) n) = Ideal.logistic (x0 (ix3 b c n)) := by
  have eDt : idx_main_v13 (ix3 b (⟨c.val - 4, by omega⟩ : Fin 81) n) = ix3 b c n :=
    funext fun a => Fin.ext (by match a with | ⟨0, _⟩ => rfl | ⟨1, _⟩ => show 4 + (c.val - 4) = c.val; omega | ⟨2, _⟩ => rfl)
  rw [val_main_v19_apply, val_main_v18_apply, val_main_cst_0_apply, val_main_v17_apply, val_main_v16_apply, val_main_cst_apply,
    val_main_v15_apply, val_main_v14_apply, val_main_v13_apply, eDt]
  exact Cert.Decode.logistic_spelt _

/-! ## The join along the channel axis, and the swap of the last two axes -/

/-- The joined array at `[b, c, n]` is the decoded value: the band holding `c`, at `c` less the channels before it. -/
theorem joined_apply (b : Fin 64) (c : Fin 85) (n : Fin 8400) :
    val_main_v20 (F := Ideal) x0 x1 (ix3 b c n) = Cert.Decode.decoded x0 x1 b n c := by
  unfold val_main_v20
  by_cases h2 : c.val < 2
  · rw [Cert.Decode.decoded_centre x0 x1 b n c h2, ← centre_stage x0 x1 b c h2 n]
    exact concatenate_apply_piece (1 : Fin S64x85x8400.rank) _ _ (ix3 b c n) 0 (by show (0 : Nat) < 3; omega) S64x2x8400 _ rfl rfl 0 rfl
      (ix3 b (⟨c.val, h2⟩ : Fin 2) n)
      (fun a ha => match a, ha with
        | ⟨0, _⟩, _ => rfl
        | ⟨1, _⟩, ha => absurd rfl ha
        | ⟨2, _⟩, _ => rfl)
      (Nat.zero_add _)
  · by_cases h4 : c.val < 4
    · rw [Cert.Decode.decoded_size x0 x1 b n c h2 h4, ← size_stage x0 x1 b c h2 h4 n]
      exact concatenate_apply_piece (1 : Fin S64x85x8400.rank) _ _ (ix3 b c n) 1 (by show (1 : Nat) < 3; omega) S64x2x8400 _ rfl rfl 2 rfl
        (ix3 b (⟨c.val - 2, by omega⟩ : Fin 2) n)
        (fun a ha => match a, ha with
          | ⟨0, _⟩, _ => rfl
          | ⟨1, _⟩, ha => absurd rfl ha
          | ⟨2, _⟩, _ => rfl)
        (by show 2 + (c.val - 2) = c.val; omega)
    · rw [Cert.Decode.decoded_score x0 x1 b n c h4, ← score_stage x0 b c h4 n]
      exact concatenate_apply_piece (1 : Fin S64x85x8400.rank) _ _ (ix3 b c n) 2 (by show (2 : Nat) < 3; omega) S64x81x8400 _ rfl rfl 4 rfl
        (ix3 b (⟨c.val - 4, by omega⟩ : Fin 81) n)
        (fun a ha => match a, ha with
          | ⟨0, _⟩, _ => rfl
          | ⟨1, _⟩, ha => absurd rfl ha
          | ⟨2, _⟩, _ => rfl)
        (by show 4 + (c.val - 4) = c.val; omega)

/-- THE REFERENCE'S RESULT is the decode: its last stage, the swap of the last two axes, reads the joined array at
    `[b, c, n]` for the result's `[b, n, c]`. -/
theorem result_eq : val_main_v21 (F := Ideal) x0 x1 = Cert.Decode.result x0 x1 := by
  funext i
  obtain ⟨b, n, c, rfl⟩ : ∃ (b : Fin 64) (n : Fin 8400) (c : Fin 85), i = ix3 b n c := ⟨i 0, i 1, i 2, eq_ix3 i⟩
  have eSwap : idx_main_v21 (ix3 b n c) = ix3 b c n :=
    funext fun a => Fin.ext (by match a with | ⟨0, _⟩ => rfl | ⟨1, _⟩ => rfl | ⟨2, _⟩ => rfl)
  rw [val_main_v21_apply, eSwap, joined_apply, Cert.Decode.result_apply]

end Cert.Decode.Ref

end
-- ==== Proof.KernelTile.lean ====
/-
  What the kernel body computes on one batch tile, element by element.

  The body loads the two anchor arrays `[2, proposal]` (centres; sizes) and a tile of two batch entries of `dt`,
  `[2, channel, proposal]`. It gives each anchor array a unit batch axis and broadcasts it over the tile, cuts the
  tile along its channel axis into the centre offsets (channels 0–1), the log-sizes (2–3) and the logits (4–84),
  computes the three bands, joins them along the channel axis, swaps the last two axes to `[2, proposal, channel]`
  and flattens the last two into one axis of 8400 · 85 = 714000, stored behind a unit middle axis. So position
  `n · 85 + c` of row `p` of what it stores is channel `c` of proposal `n` of the tile's entry `p`:
    c = 0, 1    centres[c, n] + tile[p, c, n] · sizes[c, n]
    c = 2, 3    sizes[c − 2, n] · exp (tile[p, c, n])
    c ≥ 4       logistic (tile[p, c, n]).
  Each layout operation is read at an index by one lemma over an arbitrary vector; the arithmetic between them is
  the extended reals' own, lane by lane.
-/
import proofs.«164635_j78958678770193_2_alg».proof.Proof.Gen.KernelIdeal.Skeleton
import Idealize.ShloMosaic.Lib.ValueIdx
import Idealize.ShloMosaic.Lib.Pipeline.Value

noncomputable section

namespace Cert.Decode.Kern

open Idealize.ShloMosaic Idealize.ShloMosaic.ValueIdx
open Cert.KernelIdeal

/-! ## The layout operations, each read at an index -/

section Layout
variable {α : Type}

/-- Flattening [2, 8400, 85] to [2, 714000] and adding a unit middle axis: position n·85 + c of row p. -/
theorem flatten_apply (v : S2x8400x85.Idx → α) (h1 : S2x8400x85.ShapeCasts S2x714000) (h2 : S2x714000.ShapeCasts S2x1x714000)
    (p : Fin 2) (n : Fin 8400) (c : Fin 85) (hq : n.val * 85 + c.val < 714000) :
    shapeCast S2x1x714000 (shapeCast S2x714000 v h1) h2 (ix3 p (0 : Fin 1) (⟨n.val * 85 + c.val, hq⟩ : Fin 714000)) = v (ix3 p n c) := by
  refine (shapeCast_apply _ h2 _ (ix2 p (⟨n.val * 85 + c.val, hq⟩ : Fin 714000)) ?_).trans ?_
  · rw [Shape.rowMajor_val_two, Shape.rowMajor_val_three]
    show p.val * 714000 + (n.val * 85 + c.val) = (p.val * 1 + 0) * 714000 + (n.val * 85 + c.val)
    omega
  · refine shapeCast_apply _ h1 _ (ix3 p n c) ?_
    rw [Shape.rowMajor_val_two, Shape.rowMajor_val_three]
    show (p.val * 8400 + n.val) * 85 + c.val = p.val * 714000 + (n.val * 85 + c.val)
    omega

/-- Swapping the last two axes. -/
theorem swap_apply (v : S2x85x8400.Idx → α) (h : S2x85x8400.Transposes [0, 2, 1] S2x8400x85) (p : Fin 2) (n : Fin 8400) (c : Fin 85) :
    transpose S2x8400x85 [0, 2, 1] v h (ix3 p n c) = v (ix3 p c n) :=
  transpose_apply [0, 2, 1] v h (ix3 p n c) (ix3 p c n) (fun b => match b with
    | ⟨0, _⟩ => rfl
    | ⟨1, _⟩ => rfl
    | ⟨2, _⟩ => rfl)

/-- A [2, 8400] array given a unit leading axis and broadcast over two rows of a batch tile: row c', column n. -/
theorem tile_apply (v : S2x8400.Idx → α) (hs : S2x8400.ShapeCasts S2x8400) (h1 : S2x8400.ShapeCasts S1x2x8400)
    (hb : S1x2x8400.Broadcasts S2x2x8400) (p : Fin 2) (c' : Fin 2) (n : Fin 8400) :
    broadcastTo S2x2x8400 (shapeCast S1x2x8400 (shapeCast S2x8400 v hs) h1) hb (ix3 p c' n) = v (ix2 c' n) := by
  rw [shapeCast_self]
  refine (broadcastTo_apply _ hb _ (ix3 (0 : Fin 1) c' n) (fun a => match a with
    | ⟨0, _⟩ => rfl
    | ⟨1, _⟩ => rfl
    | ⟨2, _⟩ => rfl)).trans ?_
  refine shapeCast_apply _ h1 _ (ix2 c' n) ?_
  rw [Shape.rowMajor_val_two, Shape.rowMajor_val_three]
  show c'.val * 8400 + n.val = (0 * 2 + c'.val) * 8400 + n.val
  omega

/-- A band of channels cut out of the tile: the band's channel c' is the tile's channel off + c'. -/
theorem band_apply {k : Nat} (off : Nat) (v : S2x85x8400.Idx → α) (h : S2x85x8400.Slices ![0, off, 0] ⟨3, ![2, k, 8400]⟩)
    (p : Fin 2) (c' : Fin k) (n : Fin 8400) (hc : off + c'.val < 85) :
    extractStridedSlice ⟨3, ![2, k, 8400]⟩ ![0, off, 0] v h (ix3 p c' n) = v (ix3 p (⟨off + c'.val, hc⟩ : Fin 85) n) :=
  extractStridedSlice_apply ![0, off, 0] v h (ix3 p c' n) (ix3 p (⟨off + c'.val, hc⟩ : Fin 85) n) (fun a => match a with
    | ⟨0, _⟩ => by show p.val = 0 + p.val; omega
    | ⟨1, _⟩ => by show off + c'.val = off + c'.val; rfl
    | ⟨2, _⟩ => by show n.val = 0 + n.val; omega)

/-- Three bands of 2, 2 and 81 channels joined along the channel axis: channel `c` is in the first band below 2, in the
    second below 4 (at `c − 2`), else in the third (at `c − 4`). -/
theorem join_centre (a b : S2x2x8400.Idx → α) (s : S2x81x8400.Idx → α)
    (h : Shape.Concatenates [S2x2x8400, S2x2x8400, S2x81x8400] S2x85x8400 1) (p : Fin 2) (c : Fin 85) (n : Fin 8400) (h2 : c.val < 2) :
    concatenate S2x85x8400 1 [⟨S2x2x8400, a⟩, ⟨S2x2x8400, b⟩, ⟨S2x81x8400, s⟩] h (ix3 p c n) = a (ix3 p (⟨c.val, h2⟩ : Fin 2) n) :=
  concatenate_apply_piece (1 : Fin S2x85x8400.rank) [⟨S2x2x8400, a⟩, ⟨S2x2x8400, b⟩, ⟨S2x81x8400, s⟩] h (ix3 p c n) 0 (by show (0 : Nat) < 3; omega) S2x2x8400 a rfl rfl 0 rfl
    (ix3 p (⟨c.val, h2⟩ : Fin 2) n)
    (fun d hd => match d, hd with
      | ⟨0, _⟩, _ => rfl
      | ⟨1, _⟩, hd => absurd rfl hd
      | ⟨2, _⟩, _ => rfl)
    (Nat.zero_add _)

theorem join_size (a b : S2x2x8400.Idx → α) (s : S2x81x8400.Idx → α)
    (h : Shape.Concatenates [S2x2x8400, S2x2x8400, S2x81x8400] S2x85x8400 1) (p : Fin 2) (c : Fin 85) (n : Fin 8400)
    (h2 : ¬ c.val < 2) (h4 : c.val < 4) :
    concatenate S2x85x8400 1 [⟨S2x2x8400, a⟩, ⟨S2x2x8400, b⟩, ⟨S2x81x8400, s⟩] h (ix3 p c n)
      = b (ix3 p (⟨c.val - 2, by omega⟩ : Fin 2) n) :=
  concatenate_apply_piece (1 : Fin S2x85x8400.rank) [⟨S2x2x8400, a⟩, ⟨S2x2x8400, b⟩, ⟨S2x81x8400, s⟩] h (ix3 p c n) 1 (by show (1 : Nat) < 3; omega) S2x2x8400 b rfl rfl 2 rfl
    (ix3 p (⟨c.val - 2, by omega⟩ : Fin 2) n)
    (fun d hd => match d, hd with
      | ⟨0, _⟩, _ => rfl
      | ⟨1, _⟩, hd => absurd rfl hd
      | ⟨2, _⟩, _ => rfl)
    (by show 2 + (c.val - 2) = c.val; omega)

theorem join_score (a b : S2x2x8400.Idx → α) (s : S2x81x8400.Idx → α)
    (h : Shape.Concatenates [S2x2x8400, S2x2x8400, S2x81x8400] S2x85x8400 1) (p : Fin 2) (c : Fin 85) (n : Fin 8400)
    (h4 : ¬ c.val < 4) :
    concatenate S2x85x8400 1 [⟨S2x2x8400, a⟩, ⟨S2x2x8400, b⟩, ⟨S2x81x8400, s⟩] h (ix3 p c n)
      = s (ix3 p (⟨c.val - 4, by omega⟩ : Fin 81) n) :=
  concatenate_apply_piece (1 : Fin S2x85x8400.rank) [⟨S2x2x8400, a⟩, ⟨S2x2x8400, b⟩, ⟨S2x81x8400, s⟩] h (ix3 p c n) 2 (by show (2 : Nat) < 3; omega) S2x81x8400 s rfl rfl 4 rfl
    (ix3 p (⟨c.val - 4, by omega⟩ : Fin 81) n)
    (fun d hd => match d, hd with
      | ⟨0, _⟩, _ => rfl
      | ⟨1, _⟩, hd => absurd rfl hd
      | ⟨2, _⟩, _ => rfl)
    (by show 4 + (c.val - 4) = c.val; omega)

end Layout

/-! ## The tile's decode, and the body's stored value at an element -/

/-- Channel `c` of proposal `n` of the tile's entry `p`, from the loaded anchor centres, anchor sizes and tile. -/
def tileDecoded (centres sizes : S2x8400.Idx → EReal) (tile : S2x85x8400.Idx → EReal) (p : Fin 2) (n : Fin 8400) (c : Fin 85) : EReal :=
  if h2 : c.val < 2 then
    centres (ix2 (⟨c.val, h2⟩ : Fin 2) n) + tile (ix3 p c n) * sizes (ix2 (⟨c.val, h2⟩ : Fin 2) n)
  else if h4 : c.val < 4 then
    sizes (ix2 (⟨c.val - 2, by omega⟩ : Fin 2) n) * Ideal.exp (tile (ix3 p c n))
  else
    Ideal.logistic (tile (ix3 p c n))

variable [Facts]

/-- THE BODY'S STORED VALUE at row `p`, position `n · 85 + c`, is the tile's decode of `(p, n, c)`. -/
theorem stored_apply (centres sizes : Vec Ideal S2x8400 .f32) (tile : Vec Ideal S2x85x8400 .f32)
    (p : Fin 2) (n : Fin 8400) (c : Fin 85) (hq : n.val * 85 + c.val < 714000) :
    Gen.k0_pay1 (F := Ideal) centres sizes tile (ix3 p (0 : Fin 1) (⟨n.val * 85 + c.val, hq⟩ : Fin 714000))
      = tileDecoded centres sizes tile p n c := by
  unfold Gen.k0_pay1
  refine (flatten_apply _ _ _ p n c hq).trans ?_
  refine (swap_apply _ _ p n c).trans ?_
  unfold tileDecoded
  by_cases h2 : c.val < 2
  · rw [dif_pos h2]
    refine (join_centre _ _ _ _ p c n h2).trans ?_
    show broadcastTo S2x2x8400 _ _ (ix3 p (⟨c.val, h2⟩ : Fin 2) n)
        + extractStridedSlice S2x2x8400 ![0, 0, 0] tile _ (ix3 p (⟨c.val, h2⟩ : Fin 2) n) * broadcastTo S2x2x8400 _ _ (ix3 p (⟨c.val, h2⟩ : Fin 2) n) = _
    rw [tile_apply, tile_apply, band_apply 0 tile _ p (⟨c.val, h2⟩ : Fin 2) n (by show 0 + c.val < 85; omega)]
    exact congrArg (fun i => centres (ix2 (⟨c.val, h2⟩ : Fin 2) n) + tile (ix3 p i n) * sizes (ix2 (⟨c.val, h2⟩ : Fin 2) n))
      (Fin.ext (Nat.zero_add c.val))
  · rw [dif_neg h2]
    by_cases h4 : c.val < 4
    · rw [dif_pos h4]
      refine (join_size _ _ _ _ p c n h2 h4).trans ?_
      show broadcastTo S2x2x8400 _ _ (ix3 p (⟨c.val - 2, by omega⟩ : Fin 2) n)
          * Ideal.exp (extractStridedSlice S2x2x8400 ![0, 2, 0] tile _ (ix3 p (⟨c.val - 2, by omega⟩ : Fin 2) n)) = _
      rw [tile_apply, band_apply 2 tile _ p (⟨c.val - 2, by omega⟩ : Fin 2) n (by show 2 + (c.val - 2) < 85; omega)]
      exact congrArg (fun i => sizes (ix2 (⟨c.val - 2, by omega⟩ : Fin 2) n) * Ideal.exp (tile (ix3 p i n)))
        (Fin.ext (by show 2 + (c.val - 2) = c.val; omega))
    · rw [dif_neg h4]
      refine (join_score _ _ _ _ p c n h4).trans ?_
      show Ideal.logistic (extractStridedSlice S2x81x8400 ![0, 4, 0] tile _ (ix3 p (⟨c.val - 4, by omega⟩ : Fin 81) n)) = _
      rw [band_apply 4 tile _ p (⟨c.val - 4, by omega⟩ : Fin 81) n (by show 4 + (c.val - 4) < 85; omega)]
      exact congrArg (fun i => Ideal.logistic (tile (ix3 p i n))) (Fin.ext (by show 4 + (c.val - 4) = c.val; omega))

end Cert.Decode.Kern

end
-- ==== Proof.TileOfArray.lean ====
/-
  From one batch tile to the whole array.

  The kernel's output array is `[64, 1, 714000]`: row `b` holds batch entry `b`'s proposals one after another, 85
  channels each, so position `q` of the row is channel `q mod 85` of proposal `q div 85`. `flat` is the decode laid
  out that way. A grid point works on a tile of two consecutive batch entries, `2t` and `2t + 1`; it loads the anchors'
  centre columns and size columns turned on their side and the two entries of `dt`. Under exactly those three
  readings of what was loaded, the tile's decode of `(p, n, c)` is the array's decode of `(2t + p, n, c)`, and so what
  the body stores at row `p`, position `q` is `flat` at row `2t + p`, position `q`.
-/
import proofs.«164635_j78958678770193_2_alg».proof.Proof.KernelTile
import proofs.«164635_j78958678770193_2_alg».proof.Proof.DecodeSpec
import Idealize.ShloMosaic.Lib.ValueIdx

noncomputable section

namespace Cert.Decode.Kern

open Idealize.ShloMosaic Idealize.ShloMosaic.ValueIdx
open Cert.KernelIdeal

/-- The decode with each batch entry's `[proposal, channel]` flattened into one axis behind a unit axis. -/
def flat (dt : Cert.Decode.SDt.Idx → EReal) (anch : Cert.Decode.SAnch.Idx → EReal) : S64x1x714000.Idx → EReal :=
  fun i => Cert.Decode.decoded dt anch (i 0)
    (⟨(i 2).val / 85, by have h : (i 2).val < 714000 := (i 2).isLt; omega⟩ : Fin 8400)
    (⟨(i 2).val % 85, by omega⟩ : Fin 85)

/-- `flat` at row `b`, position `n · 85 + c`. -/
theorem flat_apply (dt : Cert.Decode.SDt.Idx → EReal) (anch : Cert.Decode.SAnch.Idx → EReal) (i : S64x1x714000.Idx)
    (b : Fin 64) (n : Fin 8400) (c : Fin 85) (h0 : (i 0).val = b.val) (h2 : (i 2).val = n.val * 85 + c.val) :
    flat dt anch i = Cert.Decode.decoded dt anch b n c := by
  have e0 : i 0 = b := Fin.ext h0
  have hc : c.val < 85 := c.isLt
  have en : (⟨(i 2).val / 85, by have h : (i 2).val < 714000 := (i 2).isLt; omega⟩ : Fin 8400) = n :=
    Fin.ext (by show (i 2).val / 85 = n.val; omega)
  have ec : (⟨(i 2).val % 85, by omega⟩ : Fin 85) = c := Fin.ext (by show (i 2).val % 85 = c.val; omega)
  unfold flat
  rw [e0, en, ec]

/-- A TILE'S DECODE IS THE ARRAY'S, when the loaded centres and sizes are the anchors' columns `0 + j` and `2 + j` at
    row `n`, and row `p` of the loaded tile is batch entry `b` of `dt`. -/
theorem tileDecoded_eq (centres sizes : S2x8400.Idx → EReal) (tile : S2x85x8400.Idx → EReal)
    (dt : Cert.Decode.SDt.Idx → EReal) (anch : Cert.Decode.SAnch.Idx → EReal) (b : Fin 64) (p : Fin 2)
    (hC : ∀ (j : Fin 2) (n : Fin 8400), centres (ix2 j n) = anch (ix2 n (⟨0 + j.val, by omega⟩ : Fin 4)))
    (hS : ∀ (j : Fin 2) (n : Fin 8400), sizes (ix2 j n) = anch (ix2 n (⟨2 + j.val, by omega⟩ : Fin 4)))
    (hT : ∀ (ch : Fin 85) (n : Fin 8400), tile (ix3 p ch n) = dt (ix3 b ch n))
    (n : Fin 8400) (c : Fin 85) :
    tileDecoded centres sizes tile p n c = Cert.Decode.decoded dt anch b n c := by
  by_cases h2 : c.val < 2
  · rw [Cert.Decode.decoded_centre dt anch b n c h2]
    unfold tileDecoded
    rw [dif_pos h2, hC, hS, hT]
    exact congrArg₂ (fun i k => anch (ix2 n i) + dt (ix3 b c n) * anch (ix2 n k))
      (Fin.ext (Nat.zero_add c.val)) (Fin.ext (Nat.add_comm 2 c.val))
  · by_cases h4 : c.val < 4
    · rw [Cert.Decode.decoded_size dt anch b n c h2 h4]
      unfold tileDecoded
      rw [dif_neg h2, dif_pos h4, hS, hT]
      exact congrArg (fun i => anch (ix2 n i) * Ideal.exp (dt (ix3 b c n)))
        (Fin.ext (by show 2 + (c.val - 2) = c.val; omega))
    · rw [Cert.Decode.decoded_score dt anch b n c h4]
      unfold tileDecoded
      rw [dif_neg h2, dif_neg h4, hT]

variable [Facts]

/-- WHAT THE BODY STORES at an element `y` of its block is `flat` at the element `i` of the array that sits in row
    `2t + y₀` at the same position, under the three readings of what was loaded. -/
theorem stored_is_flat (centres sizes : Vec Ideal S2x8400 .f32) (tile : Vec Ideal S2x85x8400 .f32)
    (dt : Cert.Decode.SDt.Idx → EReal) (anch : Cert.Decode.SAnch.Idx → EReal) (t : Nat) (ht : t < 32)
    (hC : ∀ (j : Fin 2) (n : Fin 8400), centres (ix2 j n) = anch (ix2 n (⟨0 + j.val, by omega⟩ : Fin 4)))
    (hS : ∀ (j : Fin 2) (n : Fin 8400), sizes (ix2 j n) = anch (ix2 n (⟨2 + j.val, by omega⟩ : Fin 4)))
    (hT : ∀ (p : Fin 2) (ch : Fin 85) (n : Fin 8400),
      tile (ix3 p ch n) = dt (ix3 (⟨2 * t + p.val, by omega⟩ : Fin 64) ch n))
    (y : S2x1x714000.Idx) (i : S64x1x714000.Idx) (hi0 : (i 0).val = 2 * t + (y 0).val) (hi2 : (i 2).val = (y 2).val) :
    Gen.k0_pay1 (F := Ideal) centres sizes tile y = flat dt anch i := by
  obtain ⟨p, z, q, rfl⟩ : ∃ (p : Fin 2) (z : Fin 1) (q : Fin 714000), y = ix3 p z q := ⟨y 0, y 1, y 2, eq_ix3 y⟩
  obtain rfl : z = 0 := Subsingleton.elim _ _
  have hq : q.val < 714000 := q.isLt
  obtain ⟨n, c, hnc, rfl⟩ : ∃ (n : Fin 8400) (c : Fin 85) (h : n.val * 85 + c.val < 714000), q = ⟨n.val * 85 + c.val, h⟩ :=
    ⟨⟨q.val / 85, by omega⟩, ⟨q.val % 85, by omega⟩, by show q.val / 85 * 85 + q.val % 85 < 714000; omega,
      Fin.ext (by show q.val = q.val / 85 * 85 + q.val % 85; omega)⟩
  rw [stored_apply centres sizes tile p n c hnc,
    flat_apply dt anch i (⟨2 * t + p.val, by omega⟩ : Fin 64) n c hi0 hi2]
  exact tileDecoded_eq centres sizes tile dt anch _ p hC hS (hT p) n c

end Cert.Decode.Kern

end
-- ==== Proof.KernelArray.lean ====
/-
  The kernel's result is the decode (`Cert.Decode.result`).

  Before the region the host cuts the anchors into their centre columns (0–1) and size columns (2–3) and turns each on
  its side, `[2, proposal]`. The region runs 32 grid points; point `t` loads batch entries `2t`, `2t + 1` of `dt` and
  both anchor arrays whole, and writes back rows `2t`, `2t + 1` of a `[64, 1, 714000]` array. After the region the host
  reshapes that array to `[64, proposal, channel]`.

  So: what point `t` writes back is its block of `flat` (TileOfArray); the 32 blocks cover the array, row `b` lying in
  the block of point `b div 2`; hence the array after the region IS `flat`; and the reshape, which keeps row-major
  position, reads `flat` at row `b`, position `n · 85 + c` for the result's `[b, n, c]` — the decoded value.
-/
import proofs.«164635_j78958678770193_2_alg».proof.Proof.Gen.KernelIdeal.Frame
import proofs.«164635_j78958678770193_2_alg».proof.Proof.KernelTile
import proofs.«164635_j78958678770193_2_alg».proof.Proof.TileOfArray
import proofs.«164635_j78958678770193_2_alg».proof.Proof.DecodeSpec
import Idealize.ShloMosaic.Lib.StableHlo.Run
import Idealize.ShloMosaic.Lib.ValueIdx
import Idealize.ShloMosaic.Lib.Pipeline.Value

set_option maxRecDepth 16384

noncomputable section

namespace Cert.Decode.Kern

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ) (ρ : Dev nD → PrngReg)

/-- The four index maps over the 32 grid points: point `t` takes tile `t` of `dt` and writes row pair `t` of the output;
    both anchor arrays are taken whole, at block (0, 0), at every point. -/
theorem index_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The array the region finds for the anchor centres: columns 0–1 of the anchors, turned on their side. -/
theorem centres_eq (c : Dev nD) : (V m c main_v1 : S2x8400.Idx → EReal)
    = transpose S2x8400 [1, 0] (extractStridedSlice S8400x2 ![0, 0] (m ((c : Thread nD τ).loc main_arg1) : S8400x4.Idx → EReal)
        Facts₀.slices_S8400x4_S8400x2_0_0) Facts₀.transposes_S8400x2_S2x8400_1_0 := by
  show StableHlo.after hostOps0 (fun b => m (c, b)) (Proc.devRef .tc main_v1) = _
  after_results

/-- The array the region finds for the anchor sizes: columns 2–3 of the anchors, turned on their side. -/
theorem sizes_eq (c : Dev nD) : (V m c main_v3 : S2x8400.Idx → EReal)
    = transpose S2x8400 [1, 0] (extractStridedSlice S8400x2 ![0, 2] (m ((c : Thread nD τ).loc main_arg1) : S8400x4.Idx → EReal)
        Facts₀.slices_S8400x4_S8400x2_0_2) Facts₀.transposes_S8400x2_S2x8400_1_0 := by
  show StableHlo.after hostOps0 (fun b => m (c, b)) (Proc.devRef .tc main_v3) = _
  after_results

/-- Row j of a [2, proposal] anchor array cut at column `off` of the anchors and turned on its side. -/
theorem anchor_row_apply (off : Nat) (A : S8400x4.Idx → EReal) (hs : S8400x4.Slices ![0, off] S8400x2) (ht : S8400x2.Transposes [1, 0] S2x8400)
    (j : Fin 2) (n : Fin 8400) (hc : off + j.val < 4) :
    transpose S2x8400 [1, 0] (extractStridedSlice S8400x2 ![0, off] A hs) ht (ix2 j n) = A (ix2 n (⟨off + j.val, hc⟩ : Fin 4)) := by
  refine (transpose_apply [1, 0] _ ht (ix2 j n) (ix2 n j) (fun b => match b with
    | ⟨0, _⟩ => rfl
    | ⟨1, _⟩ => rfl)).trans ?_
  exact extractStridedSlice_apply ![0, off] A hs (ix2 n j) (ix2 n (⟨off + j.val, hc⟩ : Fin 4)) (fun a => match a with
    | ⟨0, _⟩ => by show n.val = 0 + n.val; omega
    | ⟨1, _⟩ => by show off + j.val = off + j.val; rfl)

/-- Zero offsets, spelt as the constant function. -/
theorem hz3 : (![0, 0, 0] : Fin 3 → Nat) = fun _ => 0 := funext fun a => by fin_cases a <;> rfl
theorem hz2 : (![0, 0] : Fin 2 → Nat) = fun _ => 0 := funext fun a => by fin_cases a <;> rfl

/-- A grid point is below 32. -/
theorem point_lt (t : Fin cfg0.N) : t.val < 32 := by
  have h := t.isLt; have hN : cfg0.N = 32 := N_0; omega

/-- The two arguments as launched, as plain arrays of extended reals. -/
abbrev dtOf (c : Dev nD) : Cert.Decode.SDt.Idx → EReal := m ((c : Thread nD τ).loc main_arg0)
abbrev anchOf (c : Dev nD) : Cert.Decode.SAnch.Idx → EReal := m ((c : Thread nD τ).loc main_arg1)

/-- The tile loaded at point `t` is batch entries `2t` and `2t + 1` of `dt`. -/
theorem tile_read (c : Dev nD) (t : Fin cfg0.N) (p : Fin 2) (ch : Fin 85) (n : Fin 8400) :
    (iblk m c 0 t : Vec Ideal S2x85x8400 .f32) (ix3 p ch n)
      = dtOf m c (ix3 (⟨2 * t.val + p.val, by have := point_lt t; omega⟩ : Fin 64) ch n) := by
  obtain ⟨e0, e1, e2, -⟩ := index_facts t
  unfold iblk
  rw [View.read_apply]
  refine (congrFun (V_main_arg0 m c) _).trans ?_
  refine congrArg (dtOf m c) (funext fun a => Fin.ext ?_)
  match a with
  | ⟨0, _⟩ => show win0_0.index t (0 : Fin 3) * 2 + 1 * p.val = 2 * t.val + p.val; rw [e0]; omega
  | ⟨1, _⟩ => show win0_0.index t (1 : Fin 3) * 85 + 1 * ch.val = ch.val; rw [e1]; omega
  | ⟨2, _⟩ => show win0_0.index t (2 : Fin 3) * 8400 + 1 * n.val = n.val; rw [e2]; omega

/-- The centres loaded at any point are the anchors' columns 0 and 1. -/
theorem centres_read (c : Dev nD) (t : Fin cfg0.N) (j : Fin 2) (n : Fin 8400) :
    (iblk m c 1 t : Vec Ideal S2x8400 .f32) (ix2 j n) = anchOf m c (ix2 n (⟨0 + j.val, by omega⟩ : Fin 4)) := by
  obtain ⟨-, -, -, e0, e1, -⟩ := index_facts t
  unfold iblk
  rw [View.read_apply]
  refine (congrFun (centres_eq m c) _).trans ?_
  refine (congrArg _ (funext fun a => Fin.ext ?_ : _ = ix2 j n)).trans (anchor_row_apply 0 _ _ _ j n _)
  match a with
  | ⟨0, _⟩ => show win0_1.index t (0 : Fin 2) * 2 + 1 * j.val = j.val; rw [e0]; omega
  | ⟨1, _⟩ => show win0_1.index t (1 : Fin 2) * 8400 + 1 * n.val = n.val; rw [e1]; omega

/-- The sizes loaded at any point are the anchors' columns 2 and 3. -/
theorem sizes_read (c : Dev nD) (t : Fin cfg0.N) (j : Fin 2) (n : Fin 8400) :
    (iblk m c 2 t : Vec Ideal S2x8400 .f32) (ix2 j n) = anchOf m c (ix2 n (⟨2 + j.val, by omega⟩ : Fin 4)) := by
  obtain ⟨-, -, -, -, -, e0, e1, -⟩ := index_facts t
  unfold iblk
  rw [View.read_apply]
  refine (congrFun (sizes_eq m c) _).trans ?_
  refine (congrArg _ (funext fun a => Fin.ext ?_ : _ = ix2 j n)).trans (anchor_row_apply 2 _ _ _ j n _)
  match a with
  | ⟨0, _⟩ => show win0_2.index t (0 : Fin 2) * 2 + 1 * j.val = j.val; rw [e0]; omega
  | ⟨1, _⟩ => show win0_2.index t (1 : Fin 2) * 8400 + 1 * n.val = n.val; rw [e1]; omega

/-- WHAT POINT `t` WRITES BACK is its block of `flat` of the two arguments: the body's one store covers its whole
    buffer, and what it stores there is `flat` element by element (`stored_is_flat`), row `y₀` of the block being row
    `2t + y₀` of the array. -/
theorem flushed_eq (c : Dev nD) (t : Fin cfg0.N) :
    (dats m 0 c).flushed 3 t = ((cfg0.win 3).blk t).view.read (Elt Ideal) (flat (dtOf m c) (anchOf m c)) := by
  have ht := point_lt t
  obtain ⟨-, -, -, -, -, -, -, e0, e1, e2⟩ := index_facts t
  show (cfg0.win 3).cut (grid0.coords t) ((dats m 0 c).after 3 t) = _
  rw [after0_3]
  unfold out0_3
  rw [View.canon_unit_zero hz3]
  simp only [View.ld_unit_zero (S := S2x8400) hz2, View.ld_unit_zero (S := S2x85x8400) hz3]
  funext y
  rw [View.read_apply]
  refine stored_is_flat (iblk m c 1 t) (iblk m c 2 t) (iblk m c 0 t) (dtOf m c) (anchOf m c) t.val ht
    (centres_read m c t) (sizes_read m c t) (fun p ch n => tile_read m c t p ch n) y _ ?_ ?_
  · show win0_3.index t (0 : Fin 3) * 2 + 1 * (y 0).val = 2 * t.val + (y 0).val; rw [e0]; omega
  · show win0_3.index t (2 : Fin 3) * 714000 + 1 * (y 2).val = (y 2).val; rw [e2]; omega

/-- An element of the output array is in point `t`'s block iff each coordinate is in the block's range on its axis. -/
theorem mem_blk (t : Fin cfg0.N) (i : S64x1x714000.Idx) :
    i ∈ ((cfg0.win 3).blk t).view.set ↔ ∀ a : Fin 3, win0_3.index t a * S2x1x714000.size a ≤ (i a).val
      ∧ (i a).val < win0_3.index t a * S2x1x714000.size a + S2x1x714000.size a := by
  show i ∈ ((View.whole main_v4).slice (win0_3.rect t)).set ↔ _
  rw [View.set_slice_whole, Rect.mem_set_unit]
  exact Iff.rfl

/-- Every element of the output array is in some point's block: row `b` is in the block of point `b div 2`. -/
theorem covered (i : S64x1x714000.Idx) :
    ∃ t : Fin cfg0.N, (cfg0.win 3).flush t = true ∧ i ∈ ((cfg0.win 3).blk t).view.set := by
  have h0 : (i 0).val < 64 := (i 0).isLt
  have h1 : (i 1).val < 1 := (i 1).isLt
  have h2 : (i 2).val < 714000 := (i 2).isLt
  obtain ⟨t, tv⟩ : ∃ t : Fin cfg0.N, t.val = (i 0).val / 2 :=
    ⟨⟨(i 0).val / 2, by rw [show cfg0.N = 32 from N_0]; omega⟩, rfl⟩
  obtain ⟨-, -, -, -, -, -, -, e0, e1, e2⟩ := index_facts t
  refine ⟨t, flush0_3 t, ?_⟩
  rw [mem_blk]
  intro a
  match a with
  | ⟨0, _⟩ => show win0_3.index t (0 : Fin 3) * 2 ≤ (i 0).val ∧ (i 0).val < win0_3.index t (0 : Fin 3) * 2 + 2; rw [e0, tv]; omega
  | ⟨1, _⟩ => show win0_3.index t (1 : Fin 3) * 1 ≤ (i 1).val ∧ (i 1).val < win0_3.index t (1 : Fin 3) * 1 + 1; rw [e1]; omega
  | ⟨2, _⟩ => show win0_3.index t (2 : Fin 3) * 714000 ≤ (i 2).val ∧ (i 2).val < win0_3.index t (2 : Fin 3) * 714000 + 714000; rw [e2]; omega

/-- THE OUTPUT ARRAY after the region is `flat` of the two arguments. -/
theorem final (c : Dev nD) : (dats m 0 c).arrAt 3 cfg0.N = flat (dtOf m c) (anchOf m c) :=
  (dats m 0 c).arrAt_eq_of_cover 3 _ (fun t _ => flushed_eq m c t) covered

/-! ## The host's reshape after the region, and the run -/

/-- THE RESULT BUFFER after the host's reshape is the decode: the reshape keeps row-major position, and position
    `(b, n, c)` of `[64, 8400, 85]` is position `(b, 0, n · 85 + c)` of `[64, 1, 714000]`. -/
theorem tail_eq (c : Dev nD) :
    (Pipeline.afterTail₀ cfgs (dats m) 0 (V0 m) [hostOps1] c main_v5 : S64x8400x85.Idx → EReal)
      = Cert.Decode.result (dtOf m c) (anchOf m c) := by
  unfold Pipeline.afterTail₀
  show StableHlo.after hostOps1 _ (Proc.devRef .tc main_v5) = _
  after_results
  funext i
  obtain ⟨b, n, ch, rfl⟩ : ∃ (b : Fin 64) (n : Fin 8400) (ch : Fin 85), i = ix3 b n ch := ⟨i 0, i 1, i 2, eq_ix3 i⟩
  have hb : b.val < 64 := b.isLt
  have hn : n.val < 8400 := n.isLt
  have hch : ch.val < 85 := ch.isLt
  have hq : n.val * 85 + ch.val < 714000 := by omega
  rw [Cert.Decode.result_apply]
  refine (shapeCast_apply _ _ (ix3 b n ch) (ix3 b (0 : Fin 1) (⟨n.val * 85 + ch.val, hq⟩ : Fin 714000)) ?_).trans ?_
  · rw [Shape.rowMajor_val_three, Shape.rowMajor_val_three]
    show (b.val * 1 + 0) * 714000 + (n.val * 85 + ch.val) = (b.val * 8400 + n.val) * 85 + ch.val
    omega
  · refine (congrFun ((Pipeline.withArrays_arr spec0 launch0.win.arr_inj c _ _ 3).trans (final m c)) _).trans ?_
    exact flat_apply (dtOf m c) (anchOf m c) _ b n ch rfl rfl

/-- THE KERNEL'S RUN, READ: every weakly fair execution terminates with the result buffer at the decode of the two
    arguments as launched, and the arguments unchanged. -/
theorem run : θ_run defs (onTc (τ := τ) (main (F := Ideal))) ⟨m, fun _ => 0, ρ⟩ fun r => ∀ c : Dev nD,
      r.2.mem ((c : Thread nD τ).loc main_v5) = Cert.Decode.result (dtOf m c) (anchOf m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v5 (Pipeline.mem_restRefs_of main_v5 (by decide) (by decide))).trans (tail_eq m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c)⟩)
    (run_main m ρ)

end Cert.Decode.Kern

end
-- ==== Proof.lean ====
/-
  The box decode before suppression: a Pallas kernel against its jnp reference, equal on the extended reals.

  Both programs take predictions `dt : [64, 85, 8400]` (batch, channel, proposal) and anchors `[8400, 4]` (centre x, y;
  width, height) and return `[64, 8400, 85]`, channels last:
    channels 0, 1    anchor centre + dt · anchor size
    channels 2, 3    anchor size · exp dt
    channels 4–84    1 / (1 + exp (− dt))
  (`Cert.Decode.result`, Proof/DecodeSpec.lean). The reference computes the three bands over the whole batch, joins them
  along the channel axis and swaps the last two axes (Proof/RefDecode.lean, over the generated run and its stages read at
  an index). The kernel works two batch entries at a time, stores each tile with proposal and channel flattened into one
  axis, and the host reshapes the result (Proof/KernelTile.lean: one tile, element by element; Proof/TileOfArray.lean: a
  tile's values are the array's; Proof/KernelArray.lean: the tiles cover the array, and the reshape). Each side computes
  the SAME expression at every element — same operands, same order; the kernel's logistic operation is by definition the
  quotient the reference spells out — so no law of arithmetic joins them and the inputs' finiteness is never used.

  The frames of the two kernel programs are the generated ones; the reference's is its generated run with the result
  dropped. The idealization rewrote no operation, so there is nothing to preserve.
-/
import proofs.«164635_j78958678770193_2_alg».proof.Defs
import proofs.«164635_j78958678770193_2_alg».proof.Proof.Gen.Kernel
import proofs.«164635_j78958678770193_2_alg».proof.Proof.Gen.Kernel.Skeleton
import proofs.«164635_j78958678770193_2_alg».proof.Proof.Gen.Kernel.Launch
import proofs.«164635_j78958678770193_2_alg».proof.Proof.Gen.Kernel.Points
import proofs.«164635_j78958678770193_2_alg».proof.Proof.Gen.Kernel.Frame
import proofs.«164635_j78958678770193_2_alg».proof.Proof.Gen.KernelIdeal
import proofs.«164635_j78958678770193_2_alg».proof.Proof.Gen.KernelIdeal.Skeleton
import proofs.«164635_j78958678770193_2_alg».proof.Proof.Gen.KernelIdeal.Launch
import proofs.«164635_j78958678770193_2_alg».proof.Proof.Gen.KernelIdeal.Points
import proofs.«164635_j78958678770193_2_alg».proof.Proof.Gen.KernelIdeal.Frame
import proofs.«164635_j78958678770193_2_alg».proof.Proof.Gen.ReferenceIdeal
import proofs.«164635_j78958678770193_2_alg».proof.Proof.Gen.ReferenceIdeal.Run
import proofs.«164635_j78958678770193_2_alg».proof.Proof.Gen.ReferenceIdeal.Read
import proofs.«164635_j78958678770193_2_alg».proof.Proof.Gen.Pre_finite_inputs
import proofs.«164635_j78958678770193_2_alg».proof.Proof.DecodeSpec
import proofs.«164635_j78958678770193_2_alg».proof.Proof.RefDecode
import proofs.«164635_j78958678770193_2_alg».proof.Proof.KernelArray
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel (hKernel := Cert.Kernel.Gen.facts) (hPre_finite_inputs := Cert.Pre_finite_inputs.Gen.facts) :=
  fun m ρ _ => Cert.Kernel.Gen.frame m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's run, its result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on `dt` and the anchors, both programs end with the decode of those two arrays in their
    result buffers: the kernel by `Cert.Decode.Kern.run`, the reference because its run's term is its last stage, which is
    the decode (`Cert.Decode.Ref.result_eq`). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Decode.result (Cert.Decode.Kern.dtOf m c) (Cert.Decode.Kern.anchOf m c), Cert.Decode.Kern.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.Decode.Ref.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
